-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x64 : Shape := ⟨2, ![8192, 64]⟩
abbrev S4096x64 : Shape := ⟨2, ![4096, 64]⟩
abbrev S_ : Shape := ⟨0, ![]⟩

class Facts : Prop where
  bcast_S_S8192x64 : S_.BroadcastsInDim S8192x64 (![] : Fin 0 → Fin S8192x64.rank)
  reducesTo_S8192x64_S_d0_1 : S8192x64.ReducesTo [0, 1] S_
  h_S_ : 0 < S_.numel
  bcast_S_S4096x64 : S_.BroadcastsInDim S4096x64 (![] : Fin 0 → Fin S4096x64.rank)
  reducesTo_S4096x64_S_d0_1 : S4096x64.ReducesTo [0, 1] S_

variable [Facts]

def fn {F : FTy → Type} [FloatOps F] (main_arg0 : FVec F S8192x64 .f32) (main_arg1 : FVec F S4096x64 .f32) (main_arg2 : FVec F S4096x64 .f32) : IVec S_ 1 :=
  let main_v0 : FVec F S8192x64 .f32 := Host.absf main_arg0
  let main_cst : FVec F S_ .f32 := constant S_ .f32 0x7F800000#32
  let main_v1 : FVec F S8192x64 .f32 := broadcastInDim S8192x64 ![] bcast_S_S8192x64 main_cst
  let main_v2 : IVec S8192x64 1 := cmpf .olt main_v0 main_v1
  let main_c : IVec S_ 1 := constantI S_ 1 1#1
  let main_v3 : IVec S_ 1 := (fun x v => Host.reduce IntOp.andi x v reducesTo_S8192x64_S_d0_1 h_S_) main_v2 main_c
  let main_v4 : FVec F S4096x64 .f32 := Host.absf main_arg1
  let main_cst_0 : FVec F S_ .f32 := constant S_ .f32 0x7F800000#32
  let main_v5 : FVec F S4096x64 .f32 := broadcastInDim S4096x64 ![] bcast_S_S4096x64 main_cst_0
  let main_v6 : IVec S4096x64 1 := cmpf .olt main_v4 main_v5
  let main_c_1 : IVec S_ 1 := constantI S_ 1 1#1
  let main_v7 : IVec S_ 1 := (fun x v => Host.reduce IntOp.andi x v reducesTo_S4096x64_S_d0_1 h_S_) main_v6 main_c_1
  let main_v8 : IVec S_ 1 := andi main_v3 main_v7
  let main_v9 : FVec F S4096x64 .f32 := Host.absf main_arg2
  let main_cst_2 : FVec F S_ .f32 := constant S_ .f32 0x7F800000#32
  let main_v10 : FVec F S4096x64 .f32 := broadcastInDim S4096x64 ![] bcast_S_S4096x64 main_cst_2
  let main_v11 : IVec S4096x64 1 := cmpf .olt main_v9 main_v10
  let main_c_3 : IVec S_ 1 := constantI S_ 1 1#1
  let main_v12 : IVec S_ 1 := (fun x v => Host.reduce IntOp.andi x v reducesTo_S4096x64_S_d0_1 h_S_) main_v11 main_c_3
  let main_v13 : IVec S_ 1 := andi main_v8 main_v12
  main_v13
-- ==== Kernel.lean ====
abbrev S8192x64 : Shape := ⟨2, ![8192, 64]⟩
abbrev S4096x64 : Shape := ⟨2, ![4096, 64]⟩
abbrev S_ : Shape := ⟨0, ![]⟩
abbrev S8192 : Shape := ⟨1, ![8192]⟩
abbrev S8192x1 : Shape := ⟨2, ![8192, 1]⟩
abbrev S64x4096 : Shape := ⟨2, ![64, 4096]⟩
abbrev S4096 : Shape := ⟨1, ![4096]⟩
abbrev S1x4096 : Shape := ⟨2, ![1, 4096]⟩
abbrev S8192x4096 : Shape := ⟨2, ![8192, 4096]⟩
abbrev S1024x64 : Shape := ⟨2, ![1024, 64]⟩
abbrev S1024x1 : Shape := ⟨2, ![1024, 1]⟩
abbrev S64x1024 : Shape := ⟨2, ![64, 1024]⟩
abbrev S1x1024 : Shape := ⟨2, ![1, 1024]⟩
abbrev S1024x1024 : Shape := ⟨2, ![1024, 1024]⟩

abbrev nBuf : Space → Nat
  | .hbm => 21
  | .vmem => 14
  | .smem => 0
  | _ => 0

abbrev bufTy : (tb : Table) → Fin (tcTables nBuf tb) → BufTy
  | .hbm, ⟨0, _⟩ => ⟨S8192x64, .f32⟩
  | .hbm, ⟨1, _⟩ => ⟨S4096x64, .f32⟩
  | .hbm, ⟨2, _⟩ => ⟨S4096x64, .f32⟩
  | .hbm, ⟨3, _⟩ => ⟨S8192x64, .bf16⟩
  | .hbm, ⟨4, _⟩ => ⟨S8192x64, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S64x4096, .f32⟩
  | .hbm, ⟨9, _⟩ => ⟨S64x4096, .bf16⟩
  | .hbm, ⟨10, _⟩ => ⟨S64x4096, .f32⟩
  | .hbm, ⟨11, _⟩ => ⟨S64x4096, .bf16⟩
  | .hbm, ⟨12, _⟩ => ⟨S4096x64, .f32⟩
  | .hbm, ⟨13, _⟩ => ⟨S_, .f32⟩
  | .hbm, ⟨14, _⟩ => ⟨S4096, .f32⟩
  | .hbm, ⟨15, _⟩ => ⟨S1x4096, .f32⟩
  | .hbm, ⟨16, _⟩ => ⟨S4096x64, .f32⟩
  | .hbm, ⟨17, _⟩ => ⟨S_, .f32⟩
  | .hbm, ⟨18, _⟩ => ⟨S4096, .f32⟩
  | .hbm, ⟨19, _⟩ => ⟨S1x4096, .f32⟩
  | .hbm, ⟨20, _⟩ => ⟨S8192x4096, .f32⟩
  | .local _ .vmem, ⟨0, _⟩ => ⟨S1024x64, .bf16⟩
  | .local _ .vmem, ⟨1, _⟩ => ⟨S1024x64, .bf16⟩
  | .local _ .vmem, ⟨2, _⟩ => ⟨S1024x1, .f32⟩
  | .local _ .vmem, ⟨3, _⟩ => ⟨S1024x1, .f32⟩
  | .local _ .vmem, ⟨4, _⟩ => ⟨S64x1024, .bf16⟩
  | .local _ .vmem, ⟨5, _⟩ => ⟨S64x1024, .bf16⟩
  | .local _ .vmem, ⟨6, _⟩ => ⟨S64x1024, .bf16⟩
  | .local _ .vmem, ⟨7, _⟩ => ⟨S64x1024, .bf16⟩
  | .local _ .vmem, ⟨8, _⟩ => ⟨S1x1024, .f32⟩
  | .local _ .vmem, ⟨9, _⟩ => ⟨S1x1024, .f32⟩
  | .local _ .vmem, ⟨10, _⟩ => ⟨S1x1024, .f32⟩
  | .local _ .vmem, ⟨11, _⟩ => ⟨S1x1024, .f32⟩
  | .local _ .vmem, ⟨12, _⟩ => ⟨S1024x1024, .f32⟩
  | .local _ .vmem, ⟨13, _⟩ => ⟨S1024x1024, .f32⟩
  | _, _ => ⟨S8192x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst_0 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst_1 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x64 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S64x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  bitsLt_bf16_f32 : FTy.bits .bf16 < FTy.bits .f32
  reducesTo_S8192x64_S8192_d1 : S8192x64.ReducesTo [1] S8192
  h_S_ : 0 < S_.numel
  bcast_S8192_S8192x1_0 : S8192.BroadcastsInDim S8192x1 (![0] : Fin 1 → Fin S8192x1.rank)
  transposes_S4096x64_S64x4096_1_0 : S4096x64.Transposes [1, 0] S64x4096
  reducesTo_S4096x64_S4096_d1 : S4096x64.ReducesTo [1] S4096
  bcast_S4096_S1x4096_1 : S4096.BroadcastsInDim S1x4096 (![1] : Fin 1 → Fin S1x4096.rank)
  inb_S1024x64_S1024x64_0_0 : ∀ a, (![0, 0] : Fin 2 → Nat) a + S1024x64.size a ≤ S1024x64.size a
  h_S1024x64 : 0 < S1024x64.numel
  shapeCasts_S1024x64_S1024x64 : S1024x64.ShapeCasts S1024x64
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S64x1024_S64x1024_0_0 : ∀ a, (![0, 0] : Fin 2 → Nat) a + S64x1024.size a ≤ S64x1024.size a
  h_S64x1024 : 0 < S64x1024.numel
  shapeCasts_S64x1024_S64x1024 : S64x1024.ShapeCasts S64x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1024x1_S1024x1024 : S1024x1.Broadcasts S1024x1024
  broadcasts_S1x1024_S1024x1024 : S1x1024.Broadcasts S1024x1024
  inb_S1024x1024_S1024x1024_0_0 : ∀ a, (![0, 0] : Fin 2 → Nat) a + S1024x1024.size a ≤ S1024x1024.size a
  h_S1024x1024 : 0 < S1024x1024.numel
  dot_S1024x64_S64x1024_S1024x1024_1_0_0_1_n_n_wf : DotDims.WF S1024x64 S64x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x64.size a ≤ S8192x64.size a
  hwx0_0 : ∀ i : grid0.Coords, EltTy.bits .bf16 = 32 ∨ (Rect.block (s := S8192x64) S1024x64.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1.size a ≤ S8192x1.size a
  hwx0_1 : ∀ i : grid0.Coords, EltTy.bits .f32 = 32 ∨ (Rect.block (s := S8192x1) S1024x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x1024.size a ≤ S64x4096.size a
  hwx0_2 : ∀ i : grid0.Coords, EltTy.bits .bf16 = 32 ∨ (Rect.block (s := S64x4096) S64x1024.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x1024.size a ≤ S64x4096.size a
  hwx0_3 : ∀ i : grid0.Coords, EltTy.bits .bf16 = 32 ∨ (Rect.block (s := S64x4096) S64x1024.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x4096.size a
  hwx0_4 : ∀ i : grid0.Coords, EltTy.bits .f32 = 32 ∨ (Rect.block (s := S1x4096) S1x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1024.size a ≤ S1x4096.size a
  hwx0_5 : ∀ i : grid0.Coords, EltTy.bits .f32 = 32 ∨ (Rect.block (s := S1x4096) S1x1024.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S1024x1024.size a ≤ S8192x4096.size a
  hwx0_6 : ∀ i : grid0.Coords, EltTy.bits .f32 = 32 ∨ (Rect.block (s := S8192x4096) S1024x1024.size (cc0_transform_6 i) (hinb0_6 i)).WholeWords (EltTy.packing .f32)

variable [Facts₀]

def dot_S1024x64_S64x1024_S1024x1024_1_0_0_1_n_n : DotDims S1024x64 S64x1024 S1024x1024 where
  lhsContracting := [1]
  rhsContracting := [0]
  lhsNonContracting := [0]
  rhsNonContracting := [1]
  lhsBatch := []
  rhsBatch := []
  wf := dot_S1024x64_S64x1024_S1024x1024_1_0_0_1_n_n_wf

abbrev win0_0 : Pipeline.Window sig grid0 :=
  Pipeline.Window.ofSpec (Memref.whole main_v0) S1024x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v3) S1024x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v5) S64x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v7) S64x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v13) S1x1024.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v14) S1024x1024.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S8192x64 : Shape := ⟨2, ![8192, 64]⟩
abbrev S4096x64 : Shape := ⟨2, ![4096, 64]⟩
abbrev S_ : Shape := ⟨0, ![]⟩
abbrev S8192 : Shape := ⟨1, ![8192]⟩
abbrev S8192x1 : Shape := ⟨2, ![8192, 1]⟩
abbrev S4096 : Shape := ⟨1, ![4096]⟩
abbrev S1x4096 : Shape := ⟨2, ![1, 4096]⟩
abbrev S8192x4096 : Shape := ⟨2, ![8192, 4096]⟩

abbrev nBuf : Space → Nat
  | .hbm => 52
  | .vmem => 0
  | .smem => 0
  | _ => 0

abbrev bufTy : (tb : Table) → Fin (tcTables nBuf tb) → BufTy
  | .hbm, ⟨0, _⟩ => ⟨S8192x64, .f32⟩
  | .hbm, ⟨1, _⟩ => ⟨S4096x64, .f32⟩
  | .hbm, ⟨2, _⟩ => ⟨S4096x64, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S1x4096, .f32⟩
  | .hbm, ⟨11, _⟩ => ⟨S8192x4096, .f32⟩
  | .hbm, ⟨12, _⟩ => ⟨S8192x4096, .f32⟩
  | .hbm, ⟨13, _⟩ => ⟨S8192x4096, .f32⟩
  | .hbm, ⟨14, _⟩ => ⟨S8192x4096, .f32⟩
  | .hbm, ⟨15, _⟩ => ⟨S_, .f32⟩
  | .hbm, ⟨16, _⟩ => ⟨S8192x4096, .f32⟩
  | .hbm, ⟨17, _⟩ => ⟨S8192x4096, .f32⟩
  | .hbm, ⟨18, _⟩ => ⟨S8192x4096, .f32⟩
  | .hbm, ⟨19, _⟩ => ⟨S_, .f32⟩
  | .hbm, ⟨20, _⟩ => ⟨S8192x4096, .f32⟩
  | .hbm, ⟨21, _⟩ => ⟨S8192x4096, .f32⟩
  | .hbm, ⟨22, _⟩ => ⟨S8192x4096, .f32⟩
  | .hbm, ⟨23, _⟩ => ⟨S8192x64, .f32⟩
  | .hbm, ⟨24, _⟩ => ⟨S_, .f32⟩
  | .hbm, ⟨25, _⟩ => ⟨S8192, .f32⟩
  | .hbm, ⟨26, _⟩ => ⟨S8192x1, .f32⟩
  | .hbm, ⟨27, _⟩ => ⟨S4096x64, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S8192x4096, .f32⟩
  | .hbm, ⟨32, _⟩ => ⟨S8192x4096, .f32⟩
  | .hbm, ⟨33, _⟩ => ⟨S8192x4096, .f32⟩
  | .hbm, ⟨34, _⟩ => ⟨S8192x4096, .f32⟩
  | .hbm, ⟨35, _⟩ => ⟨S_, .f32⟩
  | .hbm, ⟨36, _⟩ => ⟨S8192x4096, .f32⟩
  | .hbm, ⟨37, _⟩ => ⟨S8192x4096, .f32⟩
  | .hbm, ⟨38, _⟩ => ⟨S8192x4096, .f32⟩
  | .hbm, ⟨39, _⟩ => ⟨S_, .f32⟩
  | .hbm, ⟨40, _⟩ => ⟨S8192x4096, .f32⟩
  | .hbm, ⟨41, _⟩ => ⟨S8192x4096, .f32⟩
  | .hbm, ⟨42, _⟩ => ⟨S8192x4096, .f32⟩
  | .hbm, ⟨43, _⟩ => ⟨S8192x4096, .f32⟩
  | .hbm, ⟨44, _⟩ => ⟨S8192x4096, .f32⟩
  | .hbm, ⟨45, _⟩ => ⟨S8192x4096, .f32⟩
  | .hbm, ⟨46, _⟩ => ⟨S_, .f32⟩
  | .hbm, ⟨47, _⟩ => ⟨S8192x4096, .f32⟩
  | .hbm, ⟨48, _⟩ => ⟨S8192x4096, .f32⟩
  | .hbm, ⟨49, _⟩ => ⟨S_, .f32⟩
  | .hbm, ⟨50, _⟩ => ⟨S8192x4096, .f32⟩
  | .hbm, ⟨51, _⟩ => ⟨S8192x4096, .f32⟩
  | _, _ => ⟨S8192x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_1 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_2 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_5 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_cst_6 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_cst_7 : Ref sig .tc := ⟨.hbm, 46, rfl⟩
abbrev main_v35 : Ref sig .tc := ⟨.hbm, 47, rfl⟩
abbrev main_v36 : Ref sig .tc := ⟨.hbm, 48, rfl⟩
abbrev main_cst_8 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]

class Facts₀ : Prop where
  reducesTo_S8192x64_S8192_d1 : S8192x64.ReducesTo [1] S8192
  h_S_ : 0 < S_.numel
  bcast_S8192_S8192x1_0 : S8192.BroadcastsInDim S8192x1 (![0] : Fin 1 → Fin S8192x1.rank)
  reducesTo_S4096x64_S4096_d1 : S4096x64.ReducesTo [1] S4096
  bcast_S4096_S1x4096_1 : S4096.BroadcastsInDim S1x4096 (![1] : Fin 1 → Fin S1x4096.rank)
  bcast_S8192x1_S8192x4096_0_1 : S8192x1.BroadcastsInDim S8192x4096 (![0, 1] : Fin 2 → Fin S8192x4096.rank)
  bcast_S1x4096_S8192x4096_0_1 : S1x4096.BroadcastsInDim S8192x4096 (![0, 1] : Fin 2 → Fin S8192x4096.rank)
  bcast_S_S8192x4096 : S_.BroadcastsInDim S8192x4096 (![] : Fin 0 → Fin S8192x4096.rank)
  dot_S8192x64_S4096x64_S8192x4096_1_1_0_0_n_n_wf : DotDims.WF S8192x64 S4096x64 S8192x4096 [1] [1] [0] [0] [] []

variable [Facts₀]

def dot_S8192x64_S4096x64_S8192x4096_1_1_0_0_n_n : DotDims S8192x64 S4096x64 S8192x4096 where
  lhsContracting := [1]
  rhsContracting := [1]
  lhsNonContracting := [0]
  rhsNonContracting := [0]
  lhsBatch := []
  rhsBatch := []
  wf := dot_S8192x64_S4096x64_S8192x4096_1_1_0_0_n_n_wf

class Facts : Prop extends Facts₀ where

variable [Facts]
-- ==== Proof.PairProb.lean ====
/-
  The quantity both programs compute. For a row x of `feat` and a row y of `P` (or of `N`) the Euclidean distance is taken
  through the expansion of the square, d(x, y) = sqrt (max (|x|² + |y|² − 2·⟨x, y⟩) 0), the clamp at zero guarding the
  square root against a small negative difference. The entry at (r, q) of the result is the logistic function of
  d(feat r, N q) − d(feat r, P q): the probability that row r of `feat` lies nearer to row q of `P` than to row q of `N`.
  Everything is read on the extended reals; the three literals 0, 2 (and, inside the logistic function, 1) are kept as
  the binary words the programs spell, the same word on both sides.
-/
import Idealize.ShloMosaic.PureOps.Ideal
import Idealize.ShloMosaic.Lib.ValueIdx

noncomputable section

open scoped BigOperators

namespace Cert.PairProb

open Idealize.ShloMosaic Idealize.ShloMosaic.ValueIdx

/-- The 8192 query rows of width 64. -/
abbrev Sfeat : Shape := ⟨2, ![8192, 64]⟩
/-- The 4096 anchor rows of width 64 (the shape of `P` and of `N`). -/
abbrev Sanchor : Shape := ⟨2, ![4096, 64]⟩
/-- One entry per pair (query row, anchor row). -/
abbrev Spair : Shape := ⟨2, ![8192, 4096]⟩

/-- |x_r|²: zero plus the sum of the squares of the 64 entries of row `r` of the queries. -/
def sqLenFeat (x : Sfeat.Idx → EReal) (r : Fin 8192) : EReal :=
  Ideal.ofBits .f32 0x00000000#32 + ∑ k : Fin 64, x (ix2 r k) * x (ix2 r k)

/-- |y_q|²: the same for row `q` of an anchor array. -/
def sqLenAnchor (y : Sanchor.Idx → EReal) (q : Fin 4096) : EReal :=
  Ideal.ofBits .f32 0x00000000#32 + ∑ k : Fin 64, y (ix2 q k) * y (ix2 q k)

/-- ⟨x_r, y_q⟩: the inner product of query row `r` with anchor row `q`. -/
def rowDot (x : Sfeat.Idx → EReal) (y : Sanchor.Idx → EReal) (r : Fin 8192) (q : Fin 4096) : EReal :=
  ∑ k : Fin 64, x (ix2 r k) * y (ix2 q k)

/-- d(x_r, y_q) = sqrt (max ((|x_r|² + |y_q|²) − 2·⟨x_r, y_q⟩) 0). -/
def dist (x : Sfeat.Idx → EReal) (y : Sanchor.Idx → EReal) (r : Fin 8192) (q : Fin 4096) : EReal :=
  Ideal.sqrt (max (sqLenFeat x r + sqLenAnchor y q - Ideal.ofBits .f32 0x40000000#32 * rowDot x y r q)
    (Ideal.ofBits .f32 0x00000000#32))

/-- The entry for the pair (r, q): logistic (d(feat_r, N_q) − d(feat_r, P_q)). -/
def probAt (feat : Sfeat.Idx → EReal) (P N : Sanchor.Idx → EReal) (r : Fin 8192) (q : Fin 4096) : EReal :=
  Ideal.logistic (dist feat N r q - dist feat P r q)

/-- The whole result array as one function of the three argument arrays. -/
def prob (feat : Sfeat.Idx → EReal) (P N : Sanchor.Idx → EReal) : Spair.Idx → EReal :=
  fun o => probAt feat P N (o 0) (o 1)

theorem prob_ix2 (feat : Sfeat.Idx → EReal) (P N : Sanchor.Idx → EReal) (r : Fin 8192) (q : Fin 4096) :
    prob feat P N (ix2 r q) = probAt feat P N r q := rfl

end Cert.PairProb

end
-- ==== Proof.RefProb.lean ====
/-
  The reference, read at the pair (r, q). Its stages are: the keepdims column of squared query lengths and the row of squared
  anchor lengths (each a sum over the 64 entries of a row, then laid out along a unit axis and broadcast over the pairs),
  the matrix of inner products (a contraction of the two width axes), the clamped difference under the square root — once
  against `P`, once against `N` — and 1 / (1 + exp (−(d_N − d_P))). Index by index that is `PairProb.prob`: the last
  expression is the logistic function by its definition, the word 0x3F800000 denoting one.
-/
import proofs.«120896_j4140348473509_2_alg».proof.Proof.Gen.ReferenceIdeal.Read
import proofs.«120896_j4140348473509_2_alg».proof.Proof.PairProb
import Idealize.ShloMosaic.Lib.IdealHost

noncomputable section

open scoped BigOperators

namespace Cert.RefProb

open Cert.ReferenceIdeal Cert.ReferenceIdeal.Read Idealize.ShloMosaic Idealize.ShloMosaic.ValueIdx Cert.PairProb

/-- The column of squared query lengths, at row `r` (its unit coordinate is immaterial): |x_r|². -/
theorem sqcol_feat (x0 : Sfeat.Idx → EReal) (r : Fin 8192) (u : Fin 1) :
    val_main_v2 (F := Ideal) x0 (ix2 r u) = sqLenFeat x0 r := by
  rw [val_main_v2_apply, val_main_v1_apply]
  unfold sqLenFeat
  refine congrArg₂ (· + ·) rfl (Finset.sum_congr rfl fun k _ => ?_)
  have e : idx_main_v1 (idx_main_v2 (ix2 r u)) k = ix2 r k :=
    funext fun a => Fin.ext (by match a with | ⟨0, _⟩ => rfl | ⟨1, _⟩ => rfl)
  rw [e]; rfl

/-- The same column as the reference computes it a second time, for the distances to `N`. -/
theorem sqcol_feat' (x0 : Sfeat.Idx → EReal) (r : Fin 8192) (u : Fin 1) :
    val_main_v18 (F := Ideal) x0 (ix2 r u) = sqLenFeat x0 r := by
  rw [val_main_v18_apply, val_main_v17_apply]
  unfold sqLenFeat
  refine congrArg₂ (· + ·) rfl (Finset.sum_congr rfl fun k _ => ?_)
  have e : idx_main_v17 (idx_main_v18 (ix2 r u)) k = ix2 r k :=
    funext fun a => Fin.ext (by match a with | ⟨0, _⟩ => rfl | ⟨1, _⟩ => rfl)
  rw [e]; rfl

/-- The row of squared lengths of the rows of `P`, at column `q`: |y_q|². -/
theorem sqrow_P (x1 : Sanchor.Idx → EReal) (u : Fin 1) (q : Fin 4096) :
    val_main_v5 (F := Ideal) x1 (ix2 u q) = sqLenAnchor x1 q := by
  rw [val_main_v5_apply, val_main_v4_apply]
  unfold sqLenAnchor
  refine congrArg₂ (· + ·) rfl (Finset.sum_congr rfl fun k _ => ?_)
  have e : idx_main_v4 (idx_main_v5 (ix2 u q)) k = ix2 q k :=
    funext fun a => Fin.ext (by match a with | ⟨0, _⟩ => rfl | ⟨1, _⟩ => rfl)
  rw [e]; rfl

/-- The row of squared lengths of the rows of `N`, at column `q`. -/
theorem sqrow_N (x2 : Sanchor.Idx → EReal) (u : Fin 1) (q : Fin 4096) :
    val_main_v21 (F := Ideal) x2 (ix2 u q) = sqLenAnchor x2 q := by
  rw [val_main_v21_apply, val_main_v20_apply]
  unfold sqLenAnchor
  refine congrArg₂ (· + ·) rfl (Finset.sum_congr rfl fun k _ => ?_)
  have e : idx_main_v20 (idx_main_v21 (ix2 u q)) k = ix2 q k :=
    funext fun a => Fin.ext (by match a with | ⟨0, _⟩ => rfl | ⟨1, _⟩ => rfl)
  rw [e]; rfl

/-- The contraction of the width axes of the queries and of `P`, at (r, q): ⟨x_r, y_q⟩. -/
theorem dot_P (x0 : Sfeat.Idx → EReal) (x1 : Sanchor.Idx → EReal) (r : Fin 8192) (q : Fin 4096) :
    val_main_v6 (F := Ideal) x0 x1 (ix2 r q) = rowDot x0 x1 r q := by
  rw [val_main_v6_apply]
  unfold rowDot
  refine Finset.sum_congr rfl fun k _ => ?_
  have el : lidx_main_v6 (ix2 r q) k = ix2 r k :=
    funext fun a => Fin.ext (by match a with | ⟨0, _⟩ => rfl | ⟨1, _⟩ => rfl)
  have er : ridx_main_v6 (ix2 r q) k = ix2 q k :=
    funext fun a => Fin.ext (by match a with | ⟨0, _⟩ => rfl | ⟨1, _⟩ => rfl)
  rw [el, er]

/-- The same contraction against `N`. -/
theorem dot_N (x0 : Sfeat.Idx → EReal) (x2 : Sanchor.Idx → EReal) (r : Fin 8192) (q : Fin 4096) :
    val_main_v22 (F := Ideal) x0 x2 (ix2 r q) = rowDot x0 x2 r q := by
  rw [val_main_v22_apply]
  unfold rowDot
  refine Finset.sum_congr rfl fun k _ => ?_
  have el : lidx_main_v22 (ix2 r q) k = ix2 r k :=
    funext fun a => Fin.ext (by match a with | ⟨0, _⟩ => rfl | ⟨1, _⟩ => rfl)
  have er : ridx_main_v22 (ix2 r q) k = ix2 q k :=
    funext fun a => Fin.ext (by match a with | ⟨0, _⟩ => rfl | ⟨1, _⟩ => rfl)
  rw [el, er]

/-- The reference's distance from query row `r` to row `q` of `P`. -/
theorem dist_P (x0 : Sfeat.Idx → EReal) (x1 : Sanchor.Idx → EReal) (r : Fin 8192) (q : Fin 4096) :
    val_main_v15 (F := Ideal) x0 x1 (ix2 r q) = dist x0 x1 r q := by
  have e7 : idx_main_v7 (ix2 r q) = ix2 r (0 : Fin 1) :=
    funext fun a => Fin.ext (by match a with | ⟨0, _⟩ => rfl | ⟨1, _⟩ => rfl)
  have e8 : idx_main_v8 (ix2 r q) = ix2 (0 : Fin 1) q :=
    funext fun a => Fin.ext (by match a with | ⟨0, _⟩ => rfl | ⟨1, _⟩ => rfl)
  rw [val_main_v15_apply, val_main_v14_apply, val_main_v13_apply, val_main_cst_2_apply, val_main_v12_apply,
    val_main_v11_apply, val_main_v10_apply, val_main_cst_1_apply, val_main_v9_apply, val_main_v8_apply,
    val_main_v7_apply, e7, e8, sqcol_feat, sqrow_P, dot_P]
  rfl

/-- The reference's distance from query row `r` to row `q` of `N`. -/
theorem dist_N (x0 : Sfeat.Idx → EReal) (x2 : Sanchor.Idx → EReal) (r : Fin 8192) (q : Fin 4096) :
    val_main_v31 (F := Ideal) x0 x2 (ix2 r q) = dist x0 x2 r q := by
  have e23 : idx_main_v23 (ix2 r q) = ix2 r (0 : Fin 1) :=
    funext fun a => Fin.ext (by match a with | ⟨0, _⟩ => rfl | ⟨1, _⟩ => rfl)
  have e24 : idx_main_v24 (ix2 r q) = ix2 (0 : Fin 1) q :=
    funext fun a => Fin.ext (by match a with | ⟨0, _⟩ => rfl | ⟨1, _⟩ => rfl)
  rw [val_main_v31_apply, val_main_v30_apply, val_main_v29_apply, val_main_cst_6_apply, val_main_v28_apply,
    val_main_v27_apply, val_main_v26_apply, val_main_cst_5_apply, val_main_v25_apply, val_main_v24_apply,
    val_main_v23_apply, e23, e24, sqcol_feat', sqrow_N, dot_N]
  rfl

/-- The reference's last stage is the pairwise probability: 1 / (1 + exp (−(d_N − d_P))) is the logistic function of
    d_N − d_P. -/
theorem result_eq (x0 : Sfeat.Idx → EReal) (x1 x2 : Sanchor.Idx → EReal) :
    val_main_v38 (F := Ideal) x0 x1 x2 = prob x0 x1 x2 := by
  funext i
  obtain ⟨r, q, rfl⟩ : ∃ (r : Fin 8192) (q : Fin 4096), i = ix2 r q := ⟨i 0, i 1, eq_ix2 i⟩
  rw [prob_ix2, val_main_v38_apply, val_main_v37_apply, val_main_cst_8_apply, val_main_v36_apply, val_main_v35_apply,
    val_main_cst_7_apply, val_main_v34_apply, val_main_v33_apply, val_main_v32_apply, dist_N, dist_P]
  show Ideal.div (Ideal.ofBits .f32 0x3F800000#32)
      (Ideal.ofBits .f32 0x3F800000#32 + Ideal.exp (-(dist x0 x2 r q - dist x0 x1 r q)))
    = Ideal.logistic (dist x0 x2 r q - dist x0 x1 r q)
  rw [Ideal.ofBits_one_f32]
  rfl

end Cert.RefProb

end
-- ==== Proof.Staged.lean ====
/-
  What the tiles are cut from. Before the grid starts, the program lays out six arrays from its three arguments: the queries
  rounded to a narrower format (no change on the extended reals), the keepdims column of their squared lengths, `P` and `N`
  transposed (and rounded), and the two rows of squared anchor lengths. Each is read here at an index in terms of the argument
  arrays: the squared lengths are the sums the reference forms too, a transposed entry (k, s) is the entry (s, k).
-/
import proofs.«120896_j4140348473509_2_alg».proof.Proof.Gen.KernelIdeal.Frame
import proofs.«120896_j4140348473509_2_alg».proof.Proof.RefProb
import Idealize.ShloMosaic.Lib.StableHlo.Run
import Idealize.ShloMosaic.Lib.ValueLayout

noncomputable section

open scoped BigOperators

namespace Cert.KernelIdeal.Staged

open Cert.KernelIdeal Cert.KernelIdeal.Gen Idealize.ShloMosaic Idealize.ShloMosaic.TcCoe Idealize.SL.Sem
open Idealize.ShloMosaic.StableHlo Idealize.ShloMosaic.ValueIdx Cert.PairProb

variable (m : (ℓ : Loc nD τ sig) → Buf (Elt Ideal) ℓ)

/-- The queries as launched on core `c`. -/
abbrev feat (c : Dev nD) : Sfeat.Idx → EReal := m ((c : Thread nD τ).loc main_arg0)
/-- The anchors `P` as launched on core `c`. -/
abbrev ancP (c : Dev nD) : Sanchor.Idx → EReal := m ((c : Thread nD τ).loc main_arg1)
/-- The anchors `N` as launched on core `c`. -/
abbrev ancN (c : Dev nD) : Sanchor.Idx → EReal := m ((c : Thread nD τ).loc main_arg2)

/-- The rounded queries are the queries. -/
theorem queries_eq (c : Dev nD) : (V m c main_v0 : S8192x64.Idx → EReal) = feat m c := by
  dsimp only [V, hostOps0]
  after_results
  rfl

/-- The column the region finds is the keepdims column of squared query lengths, the one the reference forms. -/
theorem sqcol_eq (c : Dev nD) :
    (V m c main_v3 : S8192x1.Idx → EReal) = Cert.ReferenceIdeal.Read.val_main_v2 (F := Ideal) (feat m c) := by
  dsimp only [V, hostOps0]
  after_results
  rfl

/-- The first 64 × 4096 array is `P` transposed. -/
theorem Pt_eq (c : Dev nD) :
    (V m c main_v5 : S64x4096.Idx → EReal) = transpose S64x4096 [1, 0] (ancP m c) transposes_S4096x64_S64x4096_1_0 := by
  dsimp only [V, hostOps0]
  after_results
  rfl

/-- The second is `N` transposed. -/
theorem Nt_eq (c : Dev nD) :
    (V m c main_v7 : S64x4096.Idx → EReal) = transpose S64x4096 [1, 0] (ancN m c) transposes_S4096x64_S64x4096_1_0 := by
  dsimp only [V, hostOps0]
  after_results
  rfl

/-- The first row is the row of squared lengths of the rows of `P`. -/
theorem sqrowP_eq (c : Dev nD) :
    (V m c main_v10 : S1x4096.Idx → EReal) = Cert.ReferenceIdeal.Read.val_main_v5 (F := Ideal) (ancP m c) := by
  dsimp only [V, hostOps0]
  after_results
  rfl

/-- The second row is that of the rows of `N`. -/
theorem sqrowN_eq (c : Dev nD) :
    (V m c main_v13 : S1x4096.Idx → EReal) = Cert.ReferenceIdeal.Read.val_main_v21 (F := Ideal) (ancN m c) := by
  dsimp only [V, hostOps0]
  after_results
  rfl

/-! ## Read at an index -/

theorem queries_at (c : Dev nD) (i : S8192x64.Idx) : (V m c main_v0 : S8192x64.Idx → EReal) i = feat m c i :=
  congrFun (queries_eq m c) i

theorem sqcol_at (c : Dev nD) (r : Fin 8192) (u : Fin 1) :
    (V m c main_v3 : S8192x1.Idx → EReal) (ix2 r u) = sqLenFeat (feat m c) r :=
  (congrFun (sqcol_eq m c) (ix2 r u)).trans (Cert.RefProb.sqcol_feat (feat m c) r u)

theorem Pt_at (c : Dev nD) (k : Fin 64) (s : Fin 4096) :
    (V m c main_v5 : S64x4096.Idx → EReal) (ix2 k s) = ancP m c (ix2 s k) :=
  (congrFun (Pt_eq m c) (ix2 k s)).trans (transpose_ix2_apply (ancP m c) transposes_S4096x64_S64x4096_1_0 k s)

theorem Nt_at (c : Dev nD) (k : Fin 64) (s : Fin 4096) :
    (V m c main_v7 : S64x4096.Idx → EReal) (ix2 k s) = ancN m c (ix2 s k) :=
  (congrFun (Nt_eq m c) (ix2 k s)).trans (transpose_ix2_apply (ancN m c) transposes_S4096x64_S64x4096_1_0 k s)

theorem sqrowP_at (c : Dev nD) (u : Fin 1) (s : Fin 4096) :
    (V m c main_v10 : S1x4096.Idx → EReal) (ix2 u s) = sqLenAnchor (ancP m c) s :=
  (congrFun (sqrowP_eq m c) (ix2 u s)).trans (Cert.RefProb.sqrow_P (ancP m c) u s)

theorem sqrowN_at (c : Dev nD) (u : Fin 1) (s : Fin 4096) :
    (V m c main_v13 : S1x4096.Idx → EReal) (ix2 u s) = sqLenAnchor (ancN m c) s :=
  (congrFun (sqrowN_eq m c) (ix2 u s)).trans (Cert.RefProb.sqrow_N (ancN m c) u s)

end Cert.KernelIdeal.Staged

end
-- ==== Proof.LibRowOps.lean ====
/-
  General reads at an index, at the ideal values, used by the row-local stages of a network: a matrix product
  accumulated into zero, a column broadcast across the columns, and the select that spells the exponential linear unit.
-/
import Idealize.ShloMosaic.PureOps.Ideal.Laws
import Idealize.ShloMosaic.Lib.ValueIdx
import Idealize.ShloMosaic.Lib.ValueLayout
import Idealize.ShloMosaic.Lib.Pipeline.Value
import Idealize.ShloMosaic.Lib.IdealHost
import Idealize.ShloMosaic.Lib.StackMember

noncomputable section

open scoped BigOperators

namespace Cert.RowLib

open Idealize.ShloMosaic Idealize.ShloMosaic.ValueIdx

/-- A dot's dimension numbers that contract the left operand's columns with the right operand's rows, with no batch
    axis, are the plain m×k by k×n product's. -/
theorem dotDims_eq_plain {m k n : Nat} (D : DotDims ⟨2, ![m, k]⟩ ⟨2, ![k, n]⟩ ⟨2, ![m, n]⟩)
    (hlc : D.lhsContracting = [1]) (hrc : D.rhsContracting = [0]) (hln : D.lhsNonContracting = [0])
    (hrn : D.rhsNonContracting = [1]) (hlb : D.lhsBatch = []) (hrb : D.rhsBatch = []) : D = DotDims.plain m k n := by
  obtain ⟨lc, rc, ln, rn, lb, rb, wf⟩ := D
  dsimp only at hlc hrc hln hrn hlb hrb
  subst hlc hrc hln hrn hlb hrb
  rfl

/-- The plain product of an m×k by a k×n matrix accumulated into the zero splat, read at (a, b), is the sum over the
    contracted coordinate of the products of the entries: row a of the left operand against column b of the right. -/
theorem matmul_plain_zero_ix2 {m k n : Nat} {φ₁ φ₂ : FTy} (prec : Option ContractPrecision)
    (A : FVec Ideal ⟨2, ![m, k]⟩ φ₁) (B : FVec Ideal ⟨2, ![k, n]⟩ φ₂) (a : Fin m) (b : Fin n) :
    matmul (DotDims.plain m k n) prec A B (constant ⟨2, ![m, n]⟩ .f32 0x00000000#32) (ix2 a b)
      = ∑ c : Fin k, A (ix2 a c) * B (ix2 c b) := by
  rw [matmul_zero_eq_dotGeneral]
  exact StackMember.dotGeneral_plain_apply prec A B a b

/-- An [a, 1] array broadcast to [a, b] reads, at (p, c), the operand's one column at row p. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A select on "h is above z" is the `if` on the order of the extended reals. -/
theorem select_cmpf_ogt {α : Type} (h z : Ideal .f32) (A B : α) :
    Scalar.select (FloatOps.cmpf .ogt h z) A B = if z < h then A else B := by
  show Scalar.select (Ideal.cmp .ogt h z) A B = _
  unfold Ideal.cmp Scalar.select
  by_cases hh : z < h <;> simp [hh]

end Cert.RowLib

end
-- ==== Proof.Tile.lean ====
/-
  The arithmetic of one 1024 × 1024 tile. From the tile's six loaded blocks — 1024 query rows (rounded, which changes nothing on the
  extended reals), the column of their squared lengths, the 64 × 1024 transposed blocks of `P` and of `N`, and the two rows
  of squared anchor lengths — the body forms, at (p, q), the product of query row p with column q of each transposed block (a
  matrix product accumulated into zero: the sum over the 64 contracted entries), the two clamped differences under the square
  root, and the logistic function of their difference.
-/
import proofs.«120896_j4140348473509_2_alg».proof.Proof.Gen.KernelIdeal.Skeleton
import proofs.«120896_j4140348473509_2_alg».proof.Proof.LibRowOps
import Idealize.ShloMosaic.Lib.ValueLayout
import Idealize.ShloMosaic.Lib.Pipeline.Value

noncomputable section

open scoped BigOperators

namespace Cert.KernelIdeal.Tile

open Cert.KernelIdeal Cert.KernelIdeal.Gen Idealize.ShloMosaic Idealize.ShloMosaic.ValueIdx

/-- One entry of a tile's product: row p of the 1024 × 64 block against column q of the 64 × 1024 block. -/
theorem tile_dot (A : FVec Ideal S1024x64 .bf16) (B : FVec Ideal S64x1024 .bf16) (p q : Fin 1024) :
    matmul dot_S1024x64_S64x1024_S1024x1024_1_0_0_1_n_n none A B (constant S1024x1024 .f32 0x00000000#32) (ix2 p q)
      = ∑ k : Fin 64, A (ix2 p k) * B (ix2 k q) := by
  rw [Cert.RowLib.dotDims_eq_plain dot_S1024x64_S64x1024_S1024x1024_1_0_0_1_n_n rfl rfl rfl rfl rfl rfl]
  exact Cert.RowLib.matmul_plain_zero_ix2 none A B p q

/-- What the body stores at (p, q) of the tile, from the entries of the loaded blocks it depends on: row p of the queries'
    block and its squared length, column q of each transposed anchor block and the two squared anchor lengths at q. -/
theorem stored_at (x0 : FVec Ideal S1024x64 .bf16) (x1 : FVec Ideal S1024x1 .f32) (x2 x3 : FVec Ideal S64x1024 .bf16)
    (x4 x5 : FVec Ideal S1x1024 .f32) (p q : Fin 1024) :
    k0_pay1 (F := Ideal) x0 x1 x2 x3 x4 x5 (ix2 p q)
      = Ideal.logistic
          (Ideal.sqrt (max (x1 (ix2 p (0 : Fin 1)) + x5 (ix2 (0 : Fin 1) q)
              - Ideal.ofBits .f32 0x40000000#32 * ∑ k : Fin 64, x0 (ix2 p k) * x3 (ix2 k q)) (Ideal.ofBits .f32 0x00000000#32))
            - Ideal.sqrt (max (x1 (ix2 p (0 : Fin 1)) + x4 (ix2 (0 : Fin 1) q)
              - Ideal.ofBits .f32 0x40000000#32 * ∑ k : Fin 64, x0 (ix2 p k) * x2 (ix2 k q)) (Ideal.ofBits .f32 0x00000000#32))) := by
  rw [← tile_dot x0 x3 p q, ← tile_dot x0 x2 p q,
    ← Cert.RowLib.broadcastTo_a1_ab_apply x1 broadcasts_S1024x1_S1024x1024 p q,
    ← broadcastTo_1b_ab_apply x5 broadcasts_S1x1024_S1024x1024 p q,
    ← broadcastTo_1b_ab_apply x4 broadcasts_S1x1024_S1024x1024 p q]
  unfold k0_pay1
  simp only [shapeCast_self]
  rfl

end Cert.KernelIdeal.Tile

end
-- ==== Proof.Whole.lean ====
/-
  From tiles to the whole array. The grid is 8 × 4: point (a, b) computes the 1024 × 1024 tile of the result whose rows are
  1024·a … 1024·a + 1023 and whose columns are 1024·b … 1024·b + 1023. It is given the query rows of that row range (with
  their squared lengths) and the anchor rows of that column range (transposed, with their squared lengths); so entry (p, q) of
  the tile is the pairwise probability for the pair (1024·a + p, 1024·b + q), which is the entry of `PairProb.prob` at the place
  of the result the tile is written to. The 32 tiles cover the result, so the result array ends holding `PairProb.prob`.
-/
import proofs.«120896_j4140348473509_2_alg».proof.Proof.Gen.KernelIdeal.Value
import proofs.«120896_j4140348473509_2_alg».proof.Proof.Staged
import proofs.«120896_j4140348473509_2_alg».proof.Proof.Tile

noncomputable section

open scoped BigOperators

namespace Cert.KernelIdeal.Whole

open Cert.KernelIdeal Cert.KernelIdeal.Gen Cert.KernelIdeal.Value Idealize.ShloMosaic Idealize.ShloMosaic.TcCoe Idealize.SL.Sem
open Idealize.ShloMosaic.Pipeline (Dat)
open Idealize.ShloMosaic.ValueIdx Cert.PairProb Cert.KernelIdeal.Staged Cert.KernelIdeal.Tile

variable (m : (ℓ : Loc nD τ sig) → Buf (Elt Ideal) ℓ) (ρ : Dev nD → PrngReg)

theorem hz : (![0, 0] : Fin 2 → Nat) = fun _ => 0 := funext fun a => by fin_cases a <;> rfl

/-- The index maps over the 32 grid points: the queries' blocks and their squared lengths move with the tile's row block and
    sit at column block 0; the four anchor blocks move with the tile's column block and sit at row block 0; the tile's row block
    is one of 8, its column block one of 4. -/
theorem blocks_of_point : ∀ t : Fin cfg0.N,
      win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = 0 ∧ win0_2.index t (1 : Fin 2) = win0_6.index t (1 : Fin 2)
    ∧ win0_3.index t (0 : Fin 2) = 0 ∧ win0_3.index t (1 : Fin 2) = win0_6.index t (1 : Fin 2)
    ∧ win0_4.index t (0 : Fin 2) = 0 ∧ win0_4.index t (1 : Fin 2) = win0_6.index t (1 : Fin 2)
    ∧ win0_5.index t (0 : Fin 2) = 0 ∧ win0_5.index t (1 : Fin 2) = win0_6.index t (1 : Fin 2)
    ∧ win0_6.index t (0 : Fin 2) ≤ 7 ∧ win0_6.index t (1 : Fin 2) ≤ 3 :=
  (by decide +kernel : ∀ t : Fin grid0.N, _)

/-- Every one of the 8 × 4 tiles is some point's. -/
theorem point_of_tile : ∀ (a : Fin 8) (b : Fin 4), ∃ t : Fin cfg0.N, win0_6.index t = ![a.val, b.val] :=
  (by decide +kernel : ∀ (a : Fin 8) (b : Fin 4), ∃ t : Fin grid0.N, win0_6.index t = ![a.val, b.val])

/-! ## The input blocks at a point, entry by entry -/

/-- Entry (p, k) of the queries' block is entry k of query row r, r the tile's row block times 1024 plus p. -/
theorem queries_blk (c : Dev nD) (t : Fin cfg0.N) (p : Fin 1024) (k : Fin 64) (r : Fin 8192)
    (hr : r.val = win0_6.index t (0 : Fin 2) * 1024 + p.val) :
    (iblk m c 0 t : Vec Ideal S1024x64 .bf16) (ix2 p k) = feat m c (ix2 r k) := by
  obtain ⟨e0, e1, -⟩ := blocks_of_point t
  show (V m c main_v0 : S8192x64.Idx → EReal) (((cfg0.win 0).blk t).view.emb (ix2 p k)) = _
  refine (queries_at m c _).trans (congrArg (feat m c) (funext fun a => Fin.ext ?_))
  match a with
  | ⟨0, _⟩ => show win0_0.index t (0 : Fin 2) * 1024 + 1 * p.val = r.val; rw [e0, hr]; omega
  | ⟨1, _⟩ => show win0_0.index t (1 : Fin 2) * 64 + 1 * k.val = k.val; rw [e1]; omega

/-- The one entry of row p of the squared-lengths block is |x_r|². -/
theorem sqcol_blk (c : Dev nD) (t : Fin cfg0.N) (p : Fin 1024) (r : Fin 8192)
    (hr : r.val = win0_6.index t (0 : Fin 2) * 1024 + p.val) :
    (iblk m c 1 t : Vec Ideal S1024x1 .f32) (ix2 p (0 : Fin 1)) = sqLenFeat (feat m c) r := by
  obtain ⟨-, -, e0, e1, -⟩ := blocks_of_point t
  show (V m c main_v3 : S8192x1.Idx → EReal) (((cfg0.win 1).blk t).view.emb (ix2 p (0 : Fin 1))) = _
  have e : ((cfg0.win 1).blk t).view.emb (ix2 p (0 : Fin 1)) = (ix2 r (0 : Fin 1) : S8192x1.Idx) :=
    funext fun a => Fin.ext (by
      match a with
      | ⟨0, _⟩ => show win0_1.index t (0 : Fin 2) * 1024 + 1 * p.val = r.val; rw [e0, hr]; omega
      | ⟨1, _⟩ => show win0_1.index t (1 : Fin 2) * 1 + 1 * 0 = 0; rw [e1])
  rw [e]
  exact sqcol_at m c r 0

/-- Entry (k, q) of the transposed `P` block is entry k of row s of `P`, s the tile's column block times 1024 plus q. -/
theorem Pt_blk (c : Dev nD) (t : Fin cfg0.N) (k : Fin 64) (q : Fin 1024) (s : Fin 4096)
    (hs : s.val = win0_6.index t (1 : Fin 2) * 1024 + q.val) :
    (iblk m c 2 t : Vec Ideal S64x1024 .bf16) (ix2 k q) = ancP m c (ix2 s k) := by
  obtain ⟨-, -, -, -, e0, e1, -⟩ := blocks_of_point t
  show (V m c main_v5 : S64x4096.Idx → EReal) (((cfg0.win 2).blk t).view.emb (ix2 k q)) = _
  have e : ((cfg0.win 2).blk t).view.emb (ix2 k q) = (ix2 k s : S64x4096.Idx) :=
    funext fun a => Fin.ext (by
      match a with
      | ⟨0, _⟩ => show win0_2.index t (0 : Fin 2) * 64 + 1 * k.val = k.val; rw [e0]; omega
      | ⟨1, _⟩ => show win0_2.index t (1 : Fin 2) * 1024 + 1 * q.val = s.val; rw [e1, hs]; omega)
  rw [e]
  exact Pt_at m c k s

/-- The same for the transposed `N` block. -/
theorem Nt_blk (c : Dev nD) (t : Fin cfg0.N) (k : Fin 64) (q : Fin 1024) (s : Fin 4096)
    (hs : s.val = win0_6.index t (1 : Fin 2) * 1024 + q.val) :
    (iblk m c 3 t : Vec Ideal S64x1024 .bf16) (ix2 k q) = ancN m c (ix2 s k) := by
  obtain ⟨-, -, -, -, -, -, e0, e1, -⟩ := blocks_of_point t
  show (V m c main_v7 : S64x4096.Idx → EReal) (((cfg0.win 3).blk t).view.emb (ix2 k q)) = _
  have e : ((cfg0.win 3).blk t).view.emb (ix2 k q) = (ix2 k s : S64x4096.Idx) :=
    funext fun a => Fin.ext (by
      match a with
      | ⟨0, _⟩ => show win0_3.index t (0 : Fin 2) * 64 + 1 * k.val = k.val; rw [e0]; omega
      | ⟨1, _⟩ => show win0_3.index t (1 : Fin 2) * 1024 + 1 * q.val = s.val; rw [e1, hs]; omega)
  rw [e]
  exact Nt_at m c k s

/-- Entry q of the block of squared lengths of the rows of `P` is |P_s|². -/
theorem sqrowP_blk (c : Dev nD) (t : Fin cfg0.N) (q : Fin 1024) (s : Fin 4096)
    (hs : s.val = win0_6.index t (1 : Fin 2) * 1024 + q.val) :
    (iblk m c 4 t : Vec Ideal S1x1024 .f32) (ix2 (0 : Fin 1) q) = sqLenAnchor (ancP m c) s := by
  obtain ⟨-, -, -, -, -, -, -, -, e0, e1, -⟩ := blocks_of_point t
  show (V m c main_v10 : S1x4096.Idx → EReal) (((cfg0.win 4).blk t).view.emb (ix2 (0 : Fin 1) q)) = _
  have e : ((cfg0.win 4).blk t).view.emb (ix2 (0 : Fin 1) q) = (ix2 (0 : Fin 1) s : S1x4096.Idx) :=
    funext fun a => Fin.ext (by
      match a with
      | ⟨0, _⟩ => show win0_4.index t (0 : Fin 2) * 1 + 1 * 0 = 0; rw [e0]
      | ⟨1, _⟩ => show win0_4.index t (1 : Fin 2) * 1024 + 1 * q.val = s.val; rw [e1, hs]; omega)
  rw [e]
  exact sqrowP_at m c 0 s

/-- The same for `N`. -/
theorem sqrowN_blk (c : Dev nD) (t : Fin cfg0.N) (q : Fin 1024) (s : Fin 4096)
    (hs : s.val = win0_6.index t (1 : Fin 2) * 1024 + q.val) :
    (iblk m c 5 t : Vec Ideal S1x1024 .f32) (ix2 (0 : Fin 1) q) = sqLenAnchor (ancN m c) s := by
  obtain ⟨-, -, -, -, -, -, -, -, -, -, e0, e1, -⟩ := blocks_of_point t
  show (V m c main_v13 : S1x4096.Idx → EReal) (((cfg0.win 5).blk t).view.emb (ix2 (0 : Fin 1) q)) = _
  have e : ((cfg0.win 5).blk t).view.emb (ix2 (0 : Fin 1) q) = (ix2 (0 : Fin 1) s : S1x4096.Idx) :=
    funext fun a => Fin.ext (by
      match a with
      | ⟨0, _⟩ => show win0_5.index t (0 : Fin 2) * 1 + 1 * 0 = 0; rw [e0]
      | ⟨1, _⟩ => show win0_5.index t (1 : Fin 2) * 1024 + 1 * q.val = s.val; rw [e1, hs]; omega)
  rw [e]
  exact sqrowN_at m c 0 s

/-! ## A tile's entry -/

/-- The tile arithmetic on blocks that hold what the point is given: if the six blocks hold, at the entries (p, q) depends on,
    query row r with its squared length and rows s of `P` and of `N` (transposed) with theirs, then entry (p, q) of what the body
    stores is the pairwise probability for (r, s). -/
theorem entry_of_blocks (F0 : Sfeat.Idx → EReal) (P0 N0 : Sanchor.Idx → EReal)
    (x0 : FVec Ideal S1024x64 .bf16) (x1 : FVec Ideal S1024x1 .f32) (x2 x3 : FVec Ideal S64x1024 .bf16)
    (x4 x5 : FVec Ideal S1x1024 .f32) (p q : Fin 1024) (r : Fin 8192) (s : Fin 4096)
    (h0 : ∀ k : Fin 64, x0 (ix2 p k) = F0 (ix2 r k))
    (h1 : x1 (ix2 p (0 : Fin 1)) = sqLenFeat F0 r)
    (h2 : ∀ k : Fin 64, x2 (ix2 k q) = P0 (ix2 s k))
    (h3 : ∀ k : Fin 64, x3 (ix2 k q) = N0 (ix2 s k))
    (h4 : x4 (ix2 (0 : Fin 1) q) = sqLenAnchor P0 s)
    (h5 : x5 (ix2 (0 : Fin 1) q) = sqLenAnchor N0 s) :
    k0_pay1 (F := Ideal) x0 x1 x2 x3 x4 x5 (ix2 p q) = probAt F0 P0 N0 r s := by
  rw [stored_at, h1, h4, h5]
  simp only [h0, h2, h3]
  rfl

/-- Entry (p, q) of what point `t` stores is the pairwise probability for the pair (r, s) the tile puts it at. -/
theorem tile_entry (c : Dev nD) (t : Fin cfg0.N) (p q : Fin 1024) (r : Fin 8192) (s : Fin 4096)
    (hr : r.val = win0_6.index t (0 : Fin 2) * 1024 + p.val) (hs : s.val = win0_6.index t (1 : Fin 2) * 1024 + q.val) :
    k0_pay1 (F := Ideal) (iblk m c 0 t) (iblk m c 1 t) (iblk m c 2 t) (iblk m c 3 t) (iblk m c 4 t) (iblk m c 5 t) (ix2 p q)
      = probAt (feat m c) (ancP m c) (ancN m c) r s :=
  entry_of_blocks (feat m c) (ancP m c) (ancN m c)
    (iblk m c 0 t) (iblk m c 1 t) (iblk m c 2 t) (iblk m c 3 t) (iblk m c 4 t) (iblk m c 5 t) p q r s
    (fun k => queries_blk m c t p k r hr) (sqcol_blk m c t p r hr)
    (fun k => Pt_blk m c t k q s hs) (fun k => Nt_blk m c t k q s hs)
    (sqrowP_blk m c t q s hs) (sqrowN_blk m c t q s hs)

/-- The same at any index `y` of the tile and the index `o` of the result it is written to. -/
theorem tile_at (c : Dev nD) (t : Fin cfg0.N) (y : S1024x1024.Idx) (o : S8192x4096.Idx)
    (ho0 : (o 0).val = win0_6.index t (0 : Fin 2) * 1024 + (y 0).val)
    (ho1 : (o 1).val = win0_6.index t (1 : Fin 2) * 1024 + (y 1).val) :
    k0_pay1 (F := Ideal) (iblk m c 0 t) (iblk m c 1 t) (iblk m c 2 t) (iblk m c 3 t) (iblk m c 4 t) (iblk m c 5 t) y
      = prob (feat m c) (ancP m c) (ancN m c) o := by
  obtain ⟨p, q, rfl⟩ : ∃ (p q : Fin 1024), y = ix2 p q := ⟨y 0, y 1, eq_ix2 y⟩
  obtain ⟨r, s, rfl⟩ : ∃ (r : Fin 8192) (s : Fin 4096), o = ix2 r s := ⟨o 0, o 1, eq_ix2 o⟩
  rw [prob_ix2]
  exact tile_entry m c t p q r s ho0 ho1

/-! ## What a point writes back, and the cover -/

/-- Point `t` writes back block `t` of `PairProb.prob` of the argument arrays. -/
theorem flushed_eq (c : Dev nD) (t : Fin cfg0.N) :
    (dats m 0 c).flushed 6 t
      = ((cfg0.win 6).blk t).view.read (Elt Ideal) (prob (feat m c) (ancP m c) (ancN m c)) := by
  rw [flushed6]
  unfold out0_6
  rw [View.canon_unit_zero hz]
  simp only [View.ld_unit_zero (S := S1024x64) hz, View.ld_unit_zero (S := S1024x1) hz,
    View.ld_unit_zero (S := S64x1024) hz, View.ld_unit_zero (S := S1x1024) hz]
  funext j
  show k0_pay1 (F := Ideal) (iblk m c 0 t) (iblk m c 1 t) (iblk m c 2 t) (iblk m c 3 t) (iblk m c 4 t) (iblk m c 5 t) j
      = prob (feat m c) (ancP m c) (ancN m c) (((cfg0.win 6).blk t).view.emb j)
  refine tile_at m c t j _ ?_ ?_
  · show win0_6.index t (0 : Fin 2) * 1024 + 1 * (j 0).val = win0_6.index t (0 : Fin 2) * 1024 + (j 0).val
    omega
  · show win0_6.index t (1 : Fin 2) * 1024 + 1 * (j 1).val = win0_6.index t (1 : Fin 2) * 1024 + (j 1).val
    omega

/-- An index of the result is in point `t`'s tile iff each coordinate is in the tile's range on its axis. -/
theorem mem_tile (t : Fin cfg0.N) (i : S8192x4096.Idx) :
    i ∈ ((cfg0.win 6).blk t).view.set ↔ ∀ a : Fin 2, win0_6.index t a * S1024x1024.size a ≤ (i a).val
      ∧ (i a).val < win0_6.index t a * S1024x1024.size a + S1024x1024.size a := by
  show i ∈ ((View.whole main_v14).slice (win0_6.rect t)).set ↔ _
  rw [View.set_slice_whole, Rect.mem_set_unit]
  exact Iff.rfl

/-- Every index of the result is in some point's tile: the one whose row block is the row divided by 1024 and whose column
    block is the column divided by 1024. -/
theorem covered (i : S8192x4096.Idx) :
    ∃ t : Fin cfg0.N, (cfg0.win 6).flush t = true ∧ i ∈ ((cfg0.win 6).blk t).view.set := by
  have hi0 : (i 0).val < 8192 := (i 0).isLt
  have hi1 : (i 1).val < 4096 := (i 1).isLt
  obtain ⟨t, ht⟩ := point_of_tile ⟨(i 0).val / 1024, by omega⟩ ⟨(i 1).val / 1024, by omega⟩
  have q0 : win0_6.index t (0 : Fin 2) = (i 0).val / 1024 := congrFun ht 0
  have q1 : win0_6.index t (1 : Fin 2) = (i 1).val / 1024 := congrFun ht 1
  refine ⟨t, flush0_6 t, ?_⟩
  rw [mem_tile]
  intro a
  match a with
  | ⟨0, _⟩ =>
    show win0_6.index t (0 : Fin 2) * 1024 ≤ (i 0).val ∧ (i 0).val < win0_6.index t (0 : Fin 2) * 1024 + 1024
    omega
  | ⟨1, _⟩ =>
    show win0_6.index t (1 : Fin 2) * 1024 ≤ (i 1).val ∧ (i 1).val < win0_6.index t (1 : Fin 2) * 1024 + 1024
    omega

/-- The result array after the run is `PairProb.prob` of the argument arrays. -/
theorem final (c : Dev nD) : (dats m 0 c).arrAt 6 cfg0.N = prob (feat m c) (ancP m c) (ancN m c) :=
  (dats m 0 c).arrAt_eq_of_cover 6 (prob (feat m c) (ancP m c) (ancN m c)) (fun t _ => flushed_eq m c t) covered

/-- The run, read: the result at `PairProb.prob` of the arguments, the arguments unchanged. -/
theorem run : θ_run defs (onTc (τ := τ) (main (F := Ideal))) ⟨m, fun _ => 0, ρ⟩ fun r => ∀ c : Dev nD,
      r.2.mem ((c : Thread nD τ).loc main_v14) = prob (feat m c) (ancP m c) (ancN m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.lean ====
/-
  The certificate. The kernel computes, tile by tile over an 8 × 4 grid, the probability that a query row lies nearer to a row
  of `P` than to the matching row of `N`, the two distances taken through |x|² + |y|² − 2·⟨x, y⟩ clamped at zero; the
  reference computes the same quantity for all pairs at once. On the extended reals both results are one function of the three
  argument arrays, `PairProb.prob`: the squared lengths are the same sums on both sides, a tile's product against a transposed
  anchor block is the reference's contraction restricted to the tile's rows and columns, and the kernel's logistic function is
  the reference's 1 / (1 + exp (−x)) by definition. No finiteness of the inputs is used. The three frames are the generated
  ones (the reference's is its run with the result dropped); nothing was rewritten on the way to the idealized kernel, so
  there is nothing to preserve.
-/
import proofs.«120896_j4140348473509_2_alg».proof.Defs
import proofs.«120896_j4140348473509_2_alg».proof.Proof.Gen.Kernel
import proofs.«120896_j4140348473509_2_alg».proof.Proof.Gen.Kernel.Skeleton
import proofs.«120896_j4140348473509_2_alg».proof.Proof.Gen.Kernel.Launch
import proofs.«120896_j4140348473509_2_alg».proof.Proof.Gen.Kernel.Points
import proofs.«120896_j4140348473509_2_alg».proof.Proof.Gen.Kernel.Frame
import proofs.«120896_j4140348473509_2_alg».proof.Proof.Gen.KernelIdeal
import proofs.«120896_j4140348473509_2_alg».proof.Proof.Gen.KernelIdeal.Skeleton
import proofs.«120896_j4140348473509_2_alg».proof.Proof.Gen.KernelIdeal.Launch
import proofs.«120896_j4140348473509_2_alg».proof.Proof.Gen.KernelIdeal.Points
import proofs.«120896_j4140348473509_2_alg».proof.Proof.Gen.KernelIdeal.Frame
import proofs.«120896_j4140348473509_2_alg».proof.Proof.Gen.ReferenceIdeal
import proofs.«120896_j4140348473509_2_alg».proof.Proof.Gen.Pre_finite_inputs
import proofs.«120896_j4140348473509_2_alg».proof.Proof.Gen.KernelIdeal.Value
import proofs.«120896_j4140348473509_2_alg».proof.Proof.Gen.ReferenceIdeal.Run
import proofs.«120896_j4140348473509_2_alg».proof.Proof.Gen.ReferenceIdeal.Read
import proofs.«120896_j4140348473509_2_alg».proof.Proof.RefProb
import proofs.«120896_j4140348473509_2_alg».proof.Proof.Whole
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_ideal : Cert.frame_KernelIdeal := fun m ρ _ => Cert.KernelIdeal.Gen.frame m ρ

theorem frame_reference : Cert.frame_ReferenceIdeal := fun m ρ _ =>
  (θ_run Cert.ReferenceIdeal.defs _ _).mono (fun _ h c => (h c).2) (Cert.ReferenceIdeal.Value.run (F := Ideal) m ρ)

/-- From memories that agree on the three arguments, both programs end with the result array at `PairProb.prob` of the
    arguments: the kernel's by its tiles (`Whole.run`), the reference's stage by stage (`RefProb.result_eq`). -/
theorem algebraic : Cert.algebraic_KernelIdeal_ReferenceIdeal := by
  intro m ρ m' ρ' _ hagree
  refine ⟨fun c => Cert.PairProb.prob (Cert.KernelIdeal.Staged.feat m c) (Cert.KernelIdeal.Staged.ancP m c)
    (Cert.KernelIdeal.Staged.ancN m c), Cert.KernelIdeal.Whole.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v38_eq, (hagree c).1, (hagree c).2.1, (hagree c).2.2]
  exact Cert.RefProb.result_eq _ _ _

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
